-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S4096x4096 .f32) (main_arg1 : FVec F S4096x4096 .f32) (main_arg2 : FVec F S4096 .f32) (main_arg3 : FVec F S4096 .f32) (main_arg4 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S1x4096, .f32⟩
  | .hbm, ⟨6, _⟩ => ⟨S1x4096, .f32⟩
  | .hbm, ⟨7, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .f32 = 32 ∨ (Rect.block (s := S4096x4096) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S1x4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What each control case of the kernel's body leaves behind, as values of the body's stored terms.
  With X-tile, W-tile the two matrix tiles at the grid point and acc what the point before left in the accumulator:
    first block of the contracted coordinate:   the accumulator ends at  step X-tile W-tile zero   (the zero tile is
                                                 stored first and read back);
    a middle block:                              the accumulator ends at  step X-tile W-tile acc;
    the last block:                              the accumulator ends at  step X-tile W-tile acc, and the output tile
                                                 at  close mean-row std-row eps-tile (step X-tile W-tile acc).
  Each is the canonical form of a single store that covers the whole tile, its loads reading whole buffers. These hold
  for any float values.
-/
import proofs.«113726_j32744830664989_1_alg».proof.Proof.Gen.KernelIdeal.Frame
import Idealize.ShloMosaic.Lib.Pipeline.Value
import Idealize.ShloMosaic.Lib.Tactic

noncomputable section

namespace Cert.NoisyDense.Pieces

open Idealize.ShloMosaic Idealize.ShloMosaic.TcCoe Idealize.SL.Sem Cert.KernelIdeal Cert.KernelIdeal.Gen

variable {F : FTy → Type} [FloatOps F]

/-- The offset (0, 0) of every access of the body: each load and store takes its buffer whole. -/
theorem hz : (![0, 0] : Fin 2 → Nat) = fun _ => 0 := funext fun a => by fin_cases a <;> rfl

/-- First block: the accumulator is reset to the zero tile and then takes the first partial product. -/
theorem acc_first (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (a9 : Memref sig .tc .vmem S1024x1024 .f32) (h9 : a9.IsWhole) (hc0 : cond0_0 i) (hc1 : ¬cond0_1 i)
    (x0 x1 : Vec F S1024x1024 .f32) (x2 x3 : Vec F S1x1024 .f32) (x4 : Vec F S1024x1024 .f32) :
    sout0_A_0 c i a3 h3 a4 h4 a5 h5 a6 h6 a7 h7 a8 h8 a9 h9 hc0 hc1 x0 x1 x2 x3 x4 = k0_pay2 x0 x1 (k0_pay1 (F := F)) := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle block: the accumulator takes the block's partial product on top of what it held. -/
theorem acc_middle (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : ¬cond0_1 i)
    (x0 x1 : Vec F S1024x1024 .f32) (x2 x3 : Vec F S1x1024 .f32) (x4 : Vec F S1024x1024 .f32) (xs0 : Vec F S1024x1024 .f32) :
    sout0_B_0 c i a3 h3 a4 h4 a5 h5 a6 h6 a7 h7 a8 h8 a9 h9 hc0 hc1 x0 x1 x2 x3 x4 xs0 = k0_pay2 x0 x1 xs0 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  rw [View.canon_unit_zero hz]
  simp only [View.readAt_eq_ld, h3.read_unread, h4.read_unread, h9.read_unread, View.ld_unit_zero (S := S1024x1024) hz]

/-- The last block, the accumulator: as in a middle block. -/
theorem acc_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i)
    (x0 x1 : Vec F S1024x1024 .f32) (x2 x3 : Vec F S1x1024 .f32) (x4 : Vec F S1024x1024 .f32) (xs0 : Vec F S1024x1024 .f32) :
    sout0_C_0 c i a3 h3 a4 h4 a5 h5 a6 h6 a7 h7 a8 h8 a9 h9 hc0 hc1 x0 x1 x2 x3 x4 xs0 = k0_pay2 x0 x1 xs0 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h3.read_unread, h4.read_unread, h9.read_unread, View.ld_unit_zero (S := S1024x1024) hz]

/-- The last block, the output tile: the finished accumulator (read back after its store) plus the scaled noise. -/
theorem out_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i)
    (x0 x1 : Vec F S1024x1024 .f32) (x2 x3 : Vec F S1x1024 .f32) (x4 : Vec F S1024x1024 .f32) (xs0 : Vec F S1024x1024 .f32) :
    out0_C_5 c i a3 h3 a4 h4 a5 h5 a6 h6 a7 h7 a8 h8 a9 h9 hc0 hc1 x0 x1 x2 x3 x4 xs0 = k0_pay3 x2 x3 x4 (k0_pay2 x0 x1 xs0) := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero hz, View.readCov_unit_zero (S := S1024x1024) _ hz]
  simp only [View.readAt_eq_ld, h3.read_unread, h4.read_unread, h5.read_unread, h6.read_unread, h7.read_unread, h9.read_unread,
    View.ld_unit_zero (S := S1024x1024) hz, View.ld_unit_zero (S := S1x1024) hz]

end Cert.NoisyDense.Pieces

end
-- ==== Proof.Fold.lean ====
/-
  The accumulator across the four grid points of one result tile.

  At the first block of the contracted coordinate the accumulator ends at  step X-tile W-tile zero;  at each later
  block at  step X-tile W-tile (what the point before left);  and at the last block the output tile ends at
  close mean-row std-row eps-tile (that point's accumulator). These are the body's three control cases, each read
  through what the case stores. They hold for any float values.
-/
import proofs.«113726_j32744830664989_1_alg».proof.Proof.Pieces

noncomputable section

namespace Cert.NoisyDense.Fold

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- What the accumulator holds after point t. -/
def accAfter (c : Dev nD) (t : Fin cfg0.N) : Vec F S1024x1024 .f32 := (outsAt0 m c t.val t.isLt).2

/-- What the output's staging buffer holds after point t. -/
def outAfter (c : Dev nD) (t : Fin cfg0.N) : Vec F S1024x1024 .f32 := (outsAt0 m c t.val t.isLt).1

/-- The contents after a point depend on the point's position only. -/
theorem outsAt0_congr (c : Dev nD) {n n' : ℕ} (h : n = n') (hn : n < cfg0.N) (hn' : n' < cfg0.N) :
    outsAt0 m c n hn = outsAt0 m c n' hn' := by
  subst h; rfl

/-- First block: zero, then the first partial product. -/
theorem acc_first (c : Dev nD) (t : Fin cfg0.N) (h0 : t.val % 4 = 0) :
    accAfter m c t = k0_pay2 (iblk m c 0 t) (iblk m c 1 t) (k0_pay1 (F := F)) := by
  have h1 : ¬t.val % 4 = 3 := by omega
  unfold accAfter
  rw [outsAt0_A m c t h0 h1]
  dsimp only
  exact Pieces.acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- A later block: the block's partial product on top of what the point before left. -/
theorem acc_next (c : Dev nD) (t' t : Fin cfg0.N) (ht : t.val = t'.val + 1) (h0 : ¬t.val % 4 = 0) :
    accAfter m c t = k0_pay2 (iblk m c 0 t) (iblk m c 1 t) (accAfter m c t') := by
  have e : outsAt0 m c (t.val - 1) (Nat.lt_of_le_of_lt (Nat.sub_le _ _) t.isLt) = outsAt0 m c t'.val t'.isLt :=
    outsAt0_congr m c (by omega) _ _
  unfold accAfter
  by_cases h1 : t.val % 4 = 3
  · rw [outsAt0_C m c t h0 h1, e]
    dsimp only
    exact Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c t'.val t'.isLt).2
  · rw [outsAt0_B m c t h0 h1, e]
    dsimp only
    exact Pieces.acc_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c t'.val t'.isLt).2

/-- The last block: the output tile is the finished accumulator plus the scaled noise. -/
theorem out_last (c : Dev nD) (t' t : Fin cfg0.N) (ht : t.val = t'.val + 1) (h1 : t.val % 4 = 3) :
    outAfter m c t = k0_pay3 (iblk m c 2 t) (iblk m c 3 t) (iblk m c 4 t) (k0_pay2 (iblk m c 0 t) (iblk m c 1 t) (accAfter m c t')) := by
  have h0 : ¬t.val % 4 = 0 := by omega
  have e : outsAt0 m c (t.val - 1) (Nat.lt_of_le_of_lt (Nat.sub_le _ _) t.isLt) = outsAt0 m c t'.val t'.isLt :=
    outsAt0_congr m c (by omega) _ _
  unfold outAfter accAfter
  rw [outsAt0_C m c t h0 h1, e]
  dsimp only
  exact Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c t'.val t'.isLt).2

end Cert.NoisyDense.Fold

end
-- ==== Proof.LibAccBlocks.lean ====
import Mathlib
import Idealize.ShloMosaic.Lib.ValueIdx

/-!
# A running accumulator over column blocks is the flat sum

A row of `a * b` entries is visited in `a` consecutive blocks of `b` entries.  An accumulator starts at `z` and, at block
`j`, adds the sum of that block's entries, the entry `l` of block `j` sitting at position `j * b + l`.  After the last
block the accumulator holds `z` plus the sum of all `a * b` entries.  This holds in any commutative additive monoid
(the extended reals are one).
-/

noncomputable section

namespace Cert.LibAccBlocks

/-- Position `l` of block `j` lies inside the row: `j * b + l < a * b` when `j < a` and `l < b`. -/
theorem idx_lt {a b j l : ℕ} (hj : j < a) (hl : l < b) : j * b + l < a * b :=
  calc j * b + l < j * b + b := Nat.add_lt_add_left hl _
    _ = (j + 1) * b := (Nat.succ_mul j b).symm
    _ ≤ a * b := Nat.mul_le_mul_right b hj

/-- The sum over a row of `a * b` entries is the sum over the `a` blocks of each block's `b` entries. -/
theorem sum_eq_sum_blocks {M : Type*} [AddCommMonoid M] (a b : ℕ) (f : Fin (a * b) → M) :
    ∑ k : Fin (a * b), f k = ∑ j : Fin a, ∑ l : Fin b, f ⟨j.val * b + l.val, idx_lt j.isLt l.isLt⟩ := by
  rw [← (finProdFinEquiv (m := a) (n := b)).sum_comp, Fintype.sum_prod_type]
  refine Finset.sum_congr rfl fun j _ => Finset.sum_congr rfl fun l _ => ?_
  congr 1
  ext
  simp only [finProdFinEquiv_apply_val]
  rw [Nat.mul_comm, Nat.add_comm]

/-- **The accumulator lemma.**  If `acc 0 = z` and, for each block `j < a`, `acc (j + 1)` is `acc j` plus the sum of block
    `j`'s entries, then `acc a` is `z` plus the sum of the whole row. -/
theorem acc_blocks {M : Type*} [AddCommMonoid M] (a b : ℕ) (f : Fin (a * b) → M) (z : M) (acc : ℕ → M)
    (h0 : acc 0 = z)
    (hstep : ∀ (j : ℕ) (hj : j < a), acc (j + 1) = acc j + ∑ l : Fin b, f ⟨j * b + l.val, idx_lt hj l.isLt⟩) :
    acc a = z + ∑ k : Fin (a * b), f k := by
  -- the block sums as a function of a bare natural number (zero past the last block)
  let g : ℕ → M := fun j => if hj : j < a then ∑ l : Fin b, f ⟨j * b + l.val, idx_lt hj l.isLt⟩ else 0
  have hpre : ∀ m : ℕ, m ≤ a → acc m = z + ∑ j ∈ Finset.range m, g j := by
    intro m
    induction m with
    | zero => intro _; simp [h0]
    | succ m ih =>
      intro hm
      have hlt : m < a := hm
      rw [hstep m hlt, ih (Nat.le_of_lt hlt), Finset.sum_range_succ, add_assoc]
      congr 2
      simp only [g, dif_pos hlt]
  rw [hpre a le_rfl, sum_eq_sum_blocks, ← Fin.sum_univ_eq_sum_range]
  congr 1
  refine Finset.sum_congr rfl fun j _ => ?_
  simp only [g, dif_pos j.isLt]

/-- The accumulator lemma at the sizes of a 4096-entry row visited in 8 blocks of 512 entries. -/
theorem acc_blocks_8_512 {M : Type*} [AddCommMonoid M] (f : Fin 4096 → M) (z : M) (acc : ℕ → M)
    (h0 : acc 0 = z)
    (hstep : ∀ (j : ℕ) (hj : j < 8),
      acc (j + 1) = acc j + ∑ l : Fin 512, f ⟨j * 512 + l.val, idx_lt (a := 8) (b := 512) hj l.isLt⟩) :
    acc 8 = z + ∑ k : Fin 4096, f k :=
  acc_blocks 8 512 f z acc h0 hstep

end Cert.LibAccBlocks
-- ==== Proof.Spec.lean ====
/-
  The dense layer with additive noise, as one function of the five argument arrays.

  Entry (p, q) of the 4096 × 4096 result is
      Σ_k X(p, k) · W(k, q)  +  (mean(q) + std(q) · eps(p, q)) · s,
  the sum over all 4096 values of the contracted coordinate k and s the number the f32 word 0x39800000 denotes
  (2⁻¹²), everything on the extended reals.

  The contracted coordinate is also read in four consecutive blocks of 1024: position l of block j is k = 1024·j + l.
  Adding the four blocks' partial sums one after the other onto zero gives the whole sum; only 0 + a = a and the
  regrouping of a finite sum in a commutative monoid are used, so this holds at the infinities too.
-/
import Mathlib
import Idealize.ShloMosaic.PureOps.Ideal
import Idealize.ShloMosaic.Lib.ValueIdx
import proofs.«113726_j32744830664989_1_alg».proof.Proof.LibAccBlocks

noncomputable section

namespace Cert.NoisyDense

open Idealize.ShloMosaic Idealize.ShloMosaic.ValueIdx
open scoped BigOperators

/-- The shape of the three matrices and of the result. -/
abbrev Mat : Shape := ⟨2, ![4096, 4096]⟩
/-- The shape of the two per-column vectors. -/
abbrev Col : Shape := ⟨1, ![4096]⟩

/-- The noise term at (p, q): the column's mean plus the column's deviation times the drawn variate, scaled by s. -/
def noise (mean std : Col.Idx → EReal) (eps : Mat.Idx → EReal) (p q : Fin 4096) : EReal :=
  (mean (ix1 q) + std (ix1 q) * eps (ix2 p q)) * Ideal.ofBits .f32 0x39800000#32

/-- The whole product at (p, q): the sum over the contracted coordinate. -/
def prod (X W : Mat.Idx → EReal) (p q : Fin 4096) : EReal :=
  ∑ k : Fin 4096, X (ix2 p k) * W (ix2 k q)

/-- The layer: product plus noise, index by index. -/
def dense (X W : Mat.Idx → EReal) (mean std : Col.Idx → EReal) (eps : Mat.Idx → EReal) : Mat.Idx → EReal :=
  fun i => prod X W (i 0) (i 1) + noise mean std eps (i 0) (i 1)

/-- Position l of block j of the contracted coordinate. -/
abbrev kpos (j : Fin 4) (l : Fin 1024) : Fin 4096 := ⟨j.val * 1024 + l.val, by omega⟩

/-- Four blocks of 1024 summed one after the other onto zero are the sum over all 4096 positions. -/
theorem four_blocks {M : Type*} [AddCommMonoid M] (f : Fin 4096 → M) :
    (((0 + ∑ l : Fin 1024, f (kpos 0 l)) + ∑ l : Fin 1024, f (kpos 1 l)) + ∑ l : Fin 1024, f (kpos 2 l))
      + ∑ l : Fin 1024, f (kpos 3 l) = ∑ k : Fin 4096, f k := by
  have h : (∑ k : Fin 4096, f k) = ∑ j : Fin 4, ∑ l : Fin 1024, f (kpos j l) :=
    Cert.LibAccBlocks.sum_eq_sum_blocks 4 1024 f
  rw [h, Fin.sum_univ_four, zero_add]

end Cert.NoisyDense

end
-- ==== Proof.Blocks.lean ====
/-
  The input tiles the kernel's body sees at a grid point, read off the five argument arrays.

  The grid has 4 × 4 × 4 points; point t = 16·i + 4·j + k works on tile row i and tile column j of the result and on
  block k of the contracted coordinate. There the X tile is X[1024·i + p, 1024·k + l], the W tile W[1024·k + l, 1024·j + q],
  the eps tile eps[1024·i + p, 1024·j + q], and the mean and std rows are mean[1024·j + q], std[1024·j + q] — the two
  vectors reach the kernel recast as one-row matrices, which reads the same entries.
-/
import proofs.«113726_j32744830664989_1_alg».proof.Proof.Gen.KernelIdeal.Frame
import proofs.«113726_j32744830664989_1_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.NoisyDense.Blocks

open Idealize.ShloMosaic Idealize.ShloMosaic.TcCoe Idealize.SL.Sem Idealize.ShloMosaic.ValueIdx
open Idealize.ShloMosaic.StableHlo
open Cert.KernelIdeal Cert.KernelIdeal.Gen Cert.NoisyDense

variable {F : FTy → Type} [FloatOps F]
variable (m : (ℓ : Loc nD τ sig) → Buf (Elt F) ℓ)

theorem lt64 (t : Fin cfg0.N) : t.val < 64 := lt_of_lt_of_eq t.isLt N_0

/-- Point t's tile row, -/
def ti (t : Fin cfg0.N) : Fin 4 := ⟨t.val / 16, by have := lt64 t; omega⟩
/-- its tile column, -/
def tj (t : Fin cfg0.N) : Fin 4 := ⟨t.val / 4 % 4, by omega⟩
/-- and its block of the contracted coordinate. -/
def tk (t : Fin cfg0.N) : Fin 4 := ⟨t.val % 4, by omega⟩

/-- Each window's block index at point t, in terms of t: decided once over the 64 points. -/
theorem idx_facts : ∀ t : Fin cfg0.N,
    (win0_0.index t 0 = t.val / 16 ∧ win0_0.index t 1 = t.val % 4)
    ∧ (win0_1.index t 0 = t.val % 4 ∧ win0_1.index t 1 = t.val / 4 % 4)
    ∧ (win0_2.index t 0 = 0 ∧ win0_2.index t 1 = t.val / 4 % 4)
    ∧ (win0_3.index t 0 = 0 ∧ win0_3.index t 1 = t.val / 4 % 4)
    ∧ (win0_4.index t 0 = t.val / 16 ∧ win0_4.index t 1 = t.val / 4 % 4)
    ∧ (win0_5.index t 0 = t.val / 16 ∧ win0_5.index t 1 = t.val / 4 % 4) :=
  (by decide +kernel : ∀ t : Fin grid0.N, _)

/-- The X tile at point t. -/
theorem xtile_eq (c : Dev nD) (t : Fin cfg0.N) :
    (iblk m c 0 t : Vec F S1024x1024 .f32)
      = fun y => m ((c : Thread nD τ).loc main_arg0) (ix2 (kpos (ti t) (y 0)) (kpos (tk t) (y 1))) := by
  funext y
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * (y 0).val = t.val / 16 * 1024 + (y 0).val; rw [(idx_facts t).1.1]; omega
  | ⟨1, _⟩ => show win0_0.index t 1 * 1024 + 1 * (y 1).val = t.val % 4 * 1024 + (y 1).val; rw [(idx_facts t).1.2]; omega

/-- The W tile at point t. -/
theorem wtile_eq (c : Dev nD) (t : Fin cfg0.N) :
    (iblk m c 1 t : Vec F S1024x1024 .f32)
      = fun y => m ((c : Thread nD τ).loc main_arg1) (ix2 (kpos (tk t) (y 0)) (kpos (tj t) (y 1))) := by
  funext y
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * (y 0).val = t.val % 4 * 1024 + (y 0).val; rw [(idx_facts t).2.1.1]; omega
  | ⟨1, _⟩ => show win0_1.index t 1 * 1024 + 1 * (y 1).val = t.val / 4 % 4 * 1024 + (y 1).val; rw [(idx_facts t).2.1.2]; omega

/-- The eps tile at point t. -/
theorem etile_eq (c : Dev nD) (t : Fin cfg0.N) :
    (iblk m c 4 t : Vec F S1024x1024 .f32)
      = fun y => m ((c : Thread nD τ).loc main_arg4) (ix2 (kpos (ti t) (y 0)) (kpos (tj t) (y 1))) := by
  funext y
  unfold iblk
  rw [View.read_apply]
  show V m c main_arg4 _ = m (c.tc.loc main_arg4) _
  rw [V_main_arg4]
  congr 1
  funext a
  apply Fin.ext
  match a with
  | ⟨0, _⟩ => show win0_4.index t 0 * 1024 + 1 * (y 0).val = t.val / 16 * 1024 + (y 0).val; rw [(idx_facts t).2.2.2.2.1.1]; omega
  | ⟨1, _⟩ => show win0_4.index t 1 * 1024 + 1 * (y 1).val = t.val / 4 % 4 * 1024 + (y 1).val; rw [(idx_facts t).2.2.2.2.1.2]; omega

/-- What the region finds in the one-row matrix made of the mean vector: the vector, recast. -/
theorem mean_row (c : Dev nD) :
    (V m c main_v0 : Vec F S1x4096 .f32) = shapeCast S1x4096 (m ((c : Thread nD τ).loc main_arg2)) shapeCasts_S4096_S1x4096 := by
  dsimp only [V, hostOps0]; after_results; rfl

/-- The same for the std vector. -/
theorem std_row (c : Dev nD) :
    (V m c main_v1 : Vec F S1x4096 .f32) = shapeCast S1x4096 (m ((c : Thread nD τ).loc main_arg3)) shapeCasts_S4096_S1x4096 := by
  dsimp only [V, hostOps0]; after_results; rfl

/-- The mean row at point t. -/
theorem meanrow_apply (c : Dev nD) (t : Fin cfg0.N) (q : Fin 1024) :
    (iblk m c 2 t : Vec F S1x1024 .f32) (ix2 (0 : Fin 1) q) = m ((c : Thread nD τ).loc main_arg2) (ix1 (kpos (tj t) q)) := by
  unfold iblk
  rw [View.read_apply]
  show V m c main_v0 _ = _
  rw [mean_row]
  refine Eq.trans (congrArg _ ?_) (shapeCast_a_1a_apply (m ((c : Thread nD τ).loc main_arg2)) shapeCasts_S4096_S1x4096 (0 : Fin 1) (kpos (tj t) q))
  funext a
  apply Fin.ext
  match a with
  | ⟨0, _⟩ => show win0_2.index t 0 * 1 + 1 * 0 = 0; rw [(idx_facts t).2.2.1.1]
  | ⟨1, _⟩ => show win0_2.index t 1 * 1024 + 1 * q.val = t.val / 4 % 4 * 1024 + q.val; rw [(idx_facts t).2.2.1.2]; omega

/-- The std row at point t. -/
theorem stdrow_apply (c : Dev nD) (t : Fin cfg0.N) (q : Fin 1024) :
    (iblk m c 3 t : Vec F S1x1024 .f32) (ix2 (0 : Fin 1) q) = m ((c : Thread nD τ).loc main_arg3) (ix1 (kpos (tj t) q)) := by
  unfold iblk
  rw [View.read_apply]
  show V m c main_v1 _ = _
  rw [std_row]
  refine Eq.trans (congrArg _ ?_) (shapeCast_a_1a_apply (m ((c : Thread nD τ).loc main_arg3)) shapeCasts_S4096_S1x4096 (0 : Fin 1) (kpos (tj t) q))
  funext a
  apply Fin.ext
  match a with
  | ⟨0, _⟩ => show win0_3.index t 0 * 1 + 1 * 0 = 0; rw [(idx_facts t).2.2.2.1.1]
  | ⟨1, _⟩ => show win0_3.index t 1 * 1024 + 1 * q.val = t.val / 4 % 4 * 1024 + q.val; rw [(idx_facts t).2.2.2.1.2]; omega

end Cert.NoisyDense.Blocks

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.Tile.lean ====
/-
  The three values the kernel's body stores, read at one entry (p, q) of a 1024 × 1024 tile, on the extended reals:
  the zero tile; the accumulator plus the partial product of an X tile and a W tile (the narrowing of the two tiles
  to a shorter float format is the identity there); and the accumulator plus the scaled noise of the tile.
-/
import proofs.«113726_j32744830664989_1_alg».proof.Proof.Gen.KernelIdeal.Skeleton
import proofs.«113726_j32744830664989_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.NoisyDense.Tile

open Idealize.ShloMosaic Idealize.ShloMosaic.ValueIdx Cert.KernelIdeal Cert.KernelIdeal.Gen
open scoped BigOperators

/-- The tile the first block's reset stores is zero everywhere. -/
theorem zero_apply (p q : Fin 1024) : k0_pay1 (F := Ideal) (ix2 p q) = 0 := by
  unfold k0_pay1
  rw [shapeCast_self]
  exact Ideal.ofBits_zero_f32

/-- One accumulation step at (p, q): the accumulator's entry plus the sum over the block's 1024 positions l of
    X-tile(p, l) · W-tile(l, q). -/
theorem step_apply (x w acc : Vec Ideal S1024x1024 .f32) (p q : Fin 1024) :
    k0_pay2 x w acc (ix2 p q) = acc (ix2 p q) + ∑ l : Fin 1024, x (ix2 p l) * w (ix2 l q) := by
  unfold k0_pay2
  rw [shapeCast_self]
  show acc (ix2 p q) + matmul (F := Ideal) dot_S1024x1024_S1024x1024_S1024x1024_1_0_0_1_n_n none _ _ _ (ix2 p q) = _
  rw [Cert.LibPlainDot.matmul_plain_zero_apply dot_S1024x1024_S1024x1024_S1024x1024_1_0_0_1_n_n rfl]
  rfl

/-- The closing step at (p, q): the accumulator's entry plus (mean-row(q) + std-row(q) · eps-tile(p, q)) · s. -/
theorem close_apply (mean std : Vec Ideal S1x1024 .f32) (eps acc : Vec Ideal S1024x1024 .f32) (p q : Fin 1024) :
    k0_pay3 mean std eps acc (ix2 p q)
      = acc (ix2 p q) + (mean (ix2 (0 : Fin 1) q) + std (ix2 (0 : Fin 1) q) * eps (ix2 p q)) * Ideal.ofBits .f32 0x39800000#32 := by
  unfold k0_pay3
  simp only [shapeCast_self]
  show acc (ix2 p q) + (broadcastTo (α := Ideal .f32) S1024x1024 mean _ (ix2 p q) + broadcastTo (α := Ideal .f32) S1024x1024 std _ (ix2 p q) * eps (ix2 p q)) * _ = _
  rw [broadcastTo_1b_ab_apply, broadcastTo_1b_ab_apply]
  rfl

end Cert.NoisyDense.Tile

end
-- ==== Proof.TileValue.lean ====
/-
  One entry of a finished result tile is the dense layer's entry.

  Take the four consecutive grid points t0, t1, t2, t3 that work on one result tile (blocks 0, 1, 2, 3 of the contracted
  coordinate). Entry (p, q) of what the last point leaves in the output tile is
      ((((0 + S0) + S1) + S2) + S3) + (mean(Q) + std(Q) · eps(P, Q)) · s,
  with P = 1024·i + p, Q = 1024·j + q the entry's place in the whole result and Sb the sum over the 1024 positions of
  block b of X(P, k) · W(k, Q). The four partial sums added onto zero are the whole sum over k, so the entry is the
  layer's. Extended reals throughout; no finiteness is used.
-/
import proofs.«113726_j32744830664989_1_alg».proof.Proof.Fold
import proofs.«113726_j32744830664989_1_alg».proof.Proof.Blocks
import proofs.«113726_j32744830664989_1_alg».proof.Proof.Tile

noncomputable section

namespace Cert.NoisyDense.TileValue

open Idealize.ShloMosaic Idealize.ShloMosaic.TcCoe Idealize.SL.Sem Idealize.ShloMosaic.ValueIdx
open Cert.KernelIdeal Cert.KernelIdeal.Gen Cert.NoisyDense Cert.NoisyDense.Blocks
open scoped BigOperators

variable (m : (ℓ : Loc nD τ sig) → Buf (Elt Ideal) ℓ)

/-- The five argument arrays as launched, as functions of an index into the extended reals. -/
abbrev argX (c : Dev nD) : Mat.Idx → EReal := m ((c : Thread nD τ).loc main_arg0)
abbrev argW (c : Dev nD) : Mat.Idx → EReal := m ((c : Thread nD τ).loc main_arg1)
abbrev argMean (c : Dev nD) : Col.Idx → EReal := m ((c : Thread nD τ).loc main_arg2)
abbrev argStd (c : Dev nD) : Col.Idx → EReal := m ((c : Thread nD τ).loc main_arg3)
abbrev argEps (c : Dev nD) : Mat.Idx → EReal := m ((c : Thread nD τ).loc main_arg4)

/-- The layer's result, of the kernel's argument arrays as launched. -/
abbrev spec (c : Dev nD) : Mat.Idx → EReal :=
  dense (argX m c) (argW m c) (argMean m c) (argStd m c) (argEps m c)

/-- Point t's partial sum at (p, q): over the 1024 positions of its block of the contracted coordinate. -/
def part (c : Dev nD) (t : Fin cfg0.N) (p q : Fin 1024) : EReal :=
  ∑ l : Fin 1024, argX m c (ix2 (kpos (ti t) p) (kpos (tk t) l)) * argW m c (ix2 (kpos (tk t) l) (kpos (tj t) q))

/-- One accumulation step at point t, at (p, q): the accumulator's entry plus the point's partial sum. -/
theorem step_entry (c : Dev nD) (t : Fin cfg0.N) (acc : Vec Ideal S1024x1024 .f32) (p q : Fin 1024) :
    k0_pay2 (iblk m c 0 t) (iblk m c 1 t) acc (ix2 p q) = acc (ix2 p q) + part m c t p q := by
  refine (Tile.step_apply (iblk m c 0 t) (iblk m c 1 t) acc p q).trans ?_
  rw [xtile_eq m c t, wtile_eq m c t]
  rfl

/-- The closing step at point t, at (p, q): the accumulator's entry plus the noise at the entry's place in the result. -/
theorem close_entry (c : Dev nD) (t : Fin cfg0.N) (acc : Vec Ideal S1024x1024 .f32) (p q : Fin 1024) :
    k0_pay3 (iblk m c 2 t) (iblk m c 3 t) (iblk m c 4 t) acc (ix2 p q)
      = acc (ix2 p q) + noise (argMean m c) (argStd m c) (argEps m c) (kpos (ti t) p) (kpos (tj t) q) := by
  refine (Tile.close_apply (iblk m c 2 t) (iblk m c 3 t) (iblk m c 4 t) acc p q).trans ?_
  rw [meanrow_apply m c t q, stdrow_apply m c t q, etile_eq m c t]
  rfl

/-- The finished tile's entry is the layer's entry. -/
theorem tile_entry (c : Dev nD) (t0 t1 t2 t3 : Fin cfg0.N) (h0 : t0.val % 4 = 0) (h1 : t1.val = t0.val + 1)
    (h2 : t2.val = t1.val + 1) (h3 : t3.val = t2.val + 1) (p q : Fin 1024) :
    Fold.outAfter m c t3 (ix2 p q) = spec m c (ix2 (kpos (ti t3) p) (kpos (tj t3) q)) := by
  have hN := lt64 t3
  rw [Fold.out_last m c t2 t3 h3 (by omega), close_entry, step_entry,
    Fold.acc_next m c t1 t2 h2 (by omega), step_entry,
    Fold.acc_next m c t0 t1 h1 (by omega), step_entry,
    Fold.acc_first m c t0 h0, step_entry, Tile.zero_apply]
  have ei0 : ti t0 = ti t3 := Fin.ext (by show t0.val / 16 = t3.val / 16; omega)
  have ei1 : ti t1 = ti t3 := Fin.ext (by show t1.val / 16 = t3.val / 16; omega)
  have ei2 : ti t2 = ti t3 := Fin.ext (by show t2.val / 16 = t3.val / 16; omega)
  have ej0 : tj t0 = tj t3 := Fin.ext (by show t0.val / 4 % 4 = t3.val / 4 % 4; omega)
  have ej1 : tj t1 = tj t3 := Fin.ext (by show t1.val / 4 % 4 = t3.val / 4 % 4; omega)
  have ej2 : tj t2 = tj t3 := Fin.ext (by show t2.val / 4 % 4 = t3.val / 4 % 4; omega)
  have ek0 : tk t0 = 0 := Fin.ext (by show t0.val % 4 = 0; omega)
  have ek1 : tk t1 = 1 := Fin.ext (by show t1.val % 4 = 1; omega)
  have ek2 : tk t2 = 2 := Fin.ext (by show t2.val % 4 = 2; omega)
  have ek3 : tk t3 = 3 := Fin.ext (by show t3.val % 4 = 3; omega)
  unfold part
  rw [ei0, ei1, ei2, ej0, ej1, ej2, ek0, ek1, ek2, ek3]
  show _ = prod _ _ _ _ + noise _ _ _ _ _
  unfold prod
  rw [← four_blocks (fun k => argX m c (ix2 (kpos (ti t3) p) k) * argW m c (ix2 k (kpos (tj t3) q)))]

end Cert.NoisyDense.TileValue

end
-- ==== Proof.KernelValue.lean ====
/-
  The kernel's result array after the run is the dense layer of its argument arrays.

  The output tile is written back at the last block of the contracted coordinate only, once per result tile; what is
  written is the finished tile, whose every entry is the layer's entry at the tile's place in the result. The sixteen
  tiles written this way cover the 4096 × 4096 result: entry (P, Q) lies in the tile of row ⌊P / 1024⌋ and column
  ⌊Q / 1024⌋. So the whole array ends at the layer's result, and the argument arrays are as launched.
-/
import proofs.«113726_j32744830664989_1_alg».proof.Proof.Gen.KernelIdeal.Value
import proofs.«113726_j32744830664989_1_alg».proof.Proof.TileValue

noncomputable section

namespace Cert.NoisyDense.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.NoisyDense Cert.NoisyDense.Blocks

variable (m : (ℓ : Loc nD τ sig) → Buf (Elt Ideal) ℓ) (ρ : Dev nD → PrngReg)

/-- Every entry of the tile a flushing point leaves is the layer's entry at the tile's place. -/
theorem tile_at (c : Dev nD) (t : Fin cfg0.N) (h3 : t.val % 4 = 3) (y : S1024x1024.Idx) :
    Fold.outAfter m c t y = TileValue.spec m c (ix2 (kpos (ti t) (y 0)) (kpos (tj t) (y 1))) := by
  have hN := lt64 t
  have e := TileValue.tile_entry m c
    ⟨t.val - 3, Nat.lt_of_le_of_lt (Nat.sub_le _ _) t.isLt⟩ ⟨t.val - 2, Nat.lt_of_le_of_lt (Nat.sub_le _ _) t.isLt⟩
    ⟨t.val - 1, Nat.lt_of_le_of_lt (Nat.sub_le _ _) t.isLt⟩ t
    (by show (t.val - 3) % 4 = 0; omega) (by show t.val - 2 = t.val - 3 + 1; omega)
    (by show t.val - 1 = t.val - 2 + 1; omega) (by show t.val = t.val - 1 + 1; omega) (y 0) (y 1)
  exact (congrArg (Fold.outAfter m c t) (eq_ix2 y)).trans e

/-- What a flushing point writes back is its block of the layer's result. -/
theorem flushed_eq (c : Dev nD) (t : Fin cfg0.N) (hf : (cfg0.win 5).flush t = true) :
    (dats m 0 c).flushed 5 t = ((cfg0.win 5).blk t).view.read (Elt Ideal) (TileValue.spec m c) := by
  have h3 : t.val % 4 = 3 := (flush0_5 t).mp hf
  rw [Cert.KernelIdeal.Value.flushed5]
  funext y
  rw [View.read_apply]
  show Fold.outAfter m c t ((cfg0.win 5).xinj (grid0.coords t) y) = TileValue.spec m c (((cfg0.win 5).blk t).view.emb y)
  refine (tile_at m c t h3 _).trans ?_
  congr 1
  funext a
  apply Fin.ext
  match a with
  | ⟨0, _⟩ => show t.val / 16 * 1024 + (y 0).val = win0_5.index t 0 * 1024 + 1 * (y 0).val; rw [(idx_facts t).2.2.2.2.2.1]; omega
  | ⟨1, _⟩ => show t.val / 4 % 4 * 1024 + (y 1).val = win0_5.index t 1 * 1024 + 1 * (y 1).val; rw [(idx_facts t).2.2.2.2.2.2]; omega

/-- An entry of the result lies in point t's output block iff each coordinate lies in the block's range. -/
theorem mem_blk (t : Fin cfg0.N) (i : S4096x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v2).slice (win0_5.rect t)).set ↔ _
  rw [View.set_slice_whole, Rect.mem_set_unit]
  exact Iff.rfl

/-- Every entry of the result lies in the output block of a flushing point. -/
theorem cover (i : S4096x4096.Idx) : ∃ t : Fin cfg0.N, (cfg0.win 5).flush t = true ∧ i ∈ ((cfg0.win 5).blk t).view.set := by
  have h0 : (i 0).val < 4096 := (i 0).isLt
  have h1 : (i 1).val < 4096 := (i 1).isLt
  have hb : 16 * ((i 0).val / 1024) + 4 * ((i 1).val / 1024) + 3 < cfg0.N := by
    rw [show cfg0.N = 64 from N_0]; omega
  refine ⟨⟨16 * ((i 0).val / 1024) + 4 * ((i 1).val / 1024) + 3, hb⟩, (flush0_5 _).mpr (by
    show (16 * ((i 0).val / 1024) + 4 * ((i 1).val / 1024) + 3) % 4 = 3; omega), ?_⟩
  rw [mem_blk]
  obtain ⟨e0, e1⟩ := (idx_facts ⟨16 * ((i 0).val / 1024) + 4 * ((i 1).val / 1024) + 3, hb⟩).2.2.2.2.2
  intro a
  match a with
  | ⟨0, _⟩ =>
    show win0_5.index ⟨_, hb⟩ 0 * 1024 ≤ (i 0).val ∧ (i 0).val < win0_5.index ⟨_, hb⟩ 0 * 1024 + 1024
    rw [e0]
    show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win0_5.index ⟨_, hb⟩ 1 * 1024 ≤ (i 1).val ∧ (i 1).val < win0_5.index ⟨_, hb⟩ 1 * 1024 + 1024
    rw [e1]
    show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- The result array after the run is the layer's result. -/
theorem final (c : Dev nD) : (dats m 0 c).arrAt 5 cfg0.N = TileValue.spec m c :=
  (dats m 0 c).arrAt_eq_of_cover 5 (TileValue.spec m c) (flushed_eq m c) cover

/-- The kernel's run, read: the result array at the layer's result of the argument arrays, which are unchanged. -/
theorem run : θ_run defs (onTc (τ := τ) (main (F := Ideal))) ⟨m, fun _ => 0, ρ⟩ fun r => ∀ c : Dev nD,
      r.2.mem ((c : Thread nD τ).loc main_v2) = TileValue.spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.NoisyDense.KernelValue

end
-- ==== Proof.RefValue.lean ====
/-
  The reference computes the dense layer: its last stage, read at an index, is the whole product's entry plus the
  scaled noise's — the product as the sum over the contracted coordinate, the two vectors broadcast along the rows,
  the scale the same f32 word. Term for term the layer's definition.
-/
import proofs.«113726_j32744830664989_1_alg».proof.Proof.Gen.ReferenceIdeal.Read
import proofs.«113726_j32744830664989_1_alg».proof.Proof.Spec

noncomputable section

namespace Cert.NoisyDense.RefValue

open Idealize.ShloMosaic Idealize.ShloMosaic.ValueIdx
open Cert.ReferenceIdeal Cert.ReferenceIdeal.Read Cert.NoisyDense
open scoped BigOperators

/-- The reference's result stage is the layer, index by index. -/
theorem ref_eq (x0 x1 : (⟨S4096x4096, .f32⟩ : BufTy).Contents (Elt Ideal)) (x2 x3 : (⟨S4096, .f32⟩ : BufTy).Contents (Elt Ideal))
    (x4 : (⟨S4096x4096, .f32⟩ : BufTy).Contents (Elt Ideal)) :
    val_main_v9 (F := Ideal) x0 x1 x2 x3 x4 = dense x0 x1 x2 x3 x4 := by
  funext i
  have el : ∀ k : Fin 4096, lidx_main_v0 i k = ix2 (i 0) k := fun k => funext fun a => Fin.ext (by
    match a with | ⟨0, _⟩ => rfl | ⟨1, _⟩ => rfl)
  have er : ∀ k : Fin 4096, ridx_main_v0 i k = ix2 k (i 1) := fun k => funext fun a => Fin.ext (by
    match a with | ⟨0, _⟩ => rfl | ⟨1, _⟩ => rfl)
  have e1 : idx_main_v1 (idx_main_v5 i) = ix1 (i 1) := funext fun a => Fin.ext (by match a with | ⟨0, _⟩ => rfl)
  have e2 : idx_main_v2 (idx_main_v3 i) = ix1 (i 1) := funext fun a => Fin.ext (by match a with | ⟨0, _⟩ => rfl)
  rw [val_main_v9_apply, val_main_v0_apply, val_main_v8_apply, val_main_v6_apply, val_main_v5_apply, val_main_v1_apply,
    val_main_v4_apply, val_main_v3_apply, val_main_v2_apply, val_main_v7_apply, val_main_cst_apply]
  simp only [el, er, e1, e2, Ideal.addf_def, Ideal.mulf_def, Ideal.ofBits_def]
  unfold dense prod noise
  exact congrArg (fun z => (∑ k : Fin 4096, x0 (ix2 (i 0) k) * x1 (ix2 k (i 1)))
    + (x2 (ix1 (i 1)) + x3 (ix1 (i 1)) * x4 z) * Ideal.ofBits .f32 0x39800000#32) (eq_ix2 i)

end Cert.NoisyDense.RefValue

end
-- ==== Proof.lean ====
/-
  The dense layer with additive noise: out = x · W + (mean + std · eps) · 2⁻¹², over 4096 × 4096 arrays.

  The kernel forms each 1024 × 1024 tile of the product by adding four partial products, one per block of 1024 values
  of the contracted coordinate, into an accumulator that starts at zero, and adds the scaled noise tile after the last
  one; the reference forms the whole product at once and adds the scaled noise. On the extended reals both are the
  same sum, regrouped: only commutativity and associativity of addition and 0 + a = a are used, so the inputs'
  finiteness is never opened. The narrowing of the two matrix tiles to a shorter float format inside the kernel is the
  identity on the extended reals, and the scale is the same f32 word on both sides.

  The parts: Spec (the layer as one function of the five arrays, and the four-blocks law), Tile (the three stored
  values at an entry), Pieces and Fold (what each control case of the body leaves, point after point), Blocks (the
  input tiles read off the arrays), TileValue (a finished tile's entry is the layer's), KernelValue (the result array
  after the kernel's run is the layer), RefValue (the reference's result is the layer).
-/
import proofs.«113726_j32744830664989_1_alg».proof.Defs
import proofs.«113726_j32744830664989_1_alg».proof.Proof.Gen.Kernel
import proofs.«113726_j32744830664989_1_alg».proof.Proof.Gen.Kernel.Skeleton
import proofs.«113726_j32744830664989_1_alg».proof.Proof.Gen.Kernel.Launch
import proofs.«113726_j32744830664989_1_alg».proof.Proof.Gen.Kernel.Points
import proofs.«113726_j32744830664989_1_alg».proof.Proof.Gen.Kernel.Frame
import proofs.«113726_j32744830664989_1_alg».proof.Proof.Gen.KernelIdeal
import proofs.«113726_j32744830664989_1_alg».proof.Proof.Gen.KernelIdeal.Skeleton
import proofs.«113726_j32744830664989_1_alg».proof.Proof.Gen.KernelIdeal.Launch
import proofs.«113726_j32744830664989_1_alg».proof.Proof.Gen.KernelIdeal.Points
import proofs.«113726_j32744830664989_1_alg».proof.Proof.Gen.KernelIdeal.Frame
import proofs.«113726_j32744830664989_1_alg».proof.Proof.Gen.KernelIdeal.Value
import proofs.«113726_j32744830664989_1_alg».proof.Proof.Gen.ReferenceIdeal
import proofs.«113726_j32744830664989_1_alg».proof.Proof.Gen.ReferenceIdeal.Run
import proofs.«113726_j32744830664989_1_alg».proof.Proof.Gen.ReferenceIdeal.Read
import proofs.«113726_j32744830664989_1_alg».proof.Proof.Gen.Pre_finite_inputs
import proofs.«113726_j32744830664989_1_alg».proof.Proof.KernelValue
import proofs.«113726_j32744830664989_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From arguments that agree, the kernel's result array ends at the layer of its arguments and the reference's at the
    layer of its own: one function of equal arguments. -/
theorem algebraic : Cert.algebraic_KernelIdeal_ReferenceIdeal := by
  intro m ρ m' ρ' _ hagree
  refine ⟨fun c => Cert.NoisyDense.TileValue.spec m c, Cert.NoisyDense.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.NoisyDense.RefValue.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
